-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : IVec S2x262144 32) (main_arg2 : FVec F S64x64 .f32) (main_arg3 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x64 : Shape := ⟨2, ![270336, 64]⟩
abbrev S1x64 : Shape := ⟨2, ![1, 64]⟩
abbrev S8192x8192 : Shape := ⟨2, ![8192, 8192]⟩
abbrev S256x64 : Shape := ⟨2, ![256, 64]⟩
abbrev S8192x256 : Shape := ⟨2, ![8192, 256]⟩
abbrev S64x256 : Shape := ⟨2, ![64, 256]⟩

abbrev nBuf : Space → Nat
  | .hbm => 65
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S2x262144, .i32⟩
  | .hbm, ⟨2, _⟩ => ⟨S64x64, .f32⟩
  | .hbm, ⟨3, _⟩ => ⟨S64, .f32⟩
  | .hbm, ⟨4, _⟩ => ⟨S8192x64, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S8192, .i32⟩
  | .hbm, ⟨10, _⟩ => ⟨S270336, .i32⟩
  | .hbm, ⟨11, _⟩ => ⟨S270336, .i32⟩
  | .hbm, ⟨12, _⟩ => ⟨S_, .f32⟩
  | .hbm, ⟨13, _⟩ => ⟨S270336, .f32⟩
  | .hbm, ⟨14, _⟩ => ⟨S_, .f32⟩
  | .hbm, ⟨15, _⟩ => ⟨S8192, .f32⟩
  | .hbm, ⟨16, _⟩ => ⟨S270336x1, .i32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .i32⟩
  | .hbm, ⟨27, _⟩ => ⟨S270336, .i32⟩
  | .hbm, ⟨28, _⟩ => ⟨S270336, .i1⟩
  | .hbm, ⟨29, _⟩ => ⟨S_, .i32⟩
  | .hbm, ⟨30, _⟩ => ⟨S270336, .i32⟩
  | .hbm, ⟨31, _⟩ => ⟨S270336, .i32⟩
  | .hbm, ⟨32, _⟩ => ⟨S270336, .i32⟩
  | .hbm, ⟨33, _⟩ => ⟨S270336x1, .i32⟩
  | .hbm, ⟨34, _⟩ => ⟨S270336, .f32⟩
  | .hbm, ⟨35, _⟩ => ⟨S_, .i32⟩
  | .hbm, ⟨36, _⟩ => ⟨S270336, .i32⟩
  | .hbm, ⟨37, _⟩ => ⟨S270336, .i1⟩
  | .hbm, ⟨38, _⟩ => ⟨S_, .i32⟩
  | .hbm, ⟨39, _⟩ => ⟨S270336, .i32⟩
  | .hbm, ⟨40, _⟩ => ⟨S270336, .i32⟩
  | .hbm, ⟨41, _⟩ => ⟨S270336, .i32⟩
  | .hbm, ⟨42, _⟩ => ⟨S270336x1, .i32⟩
  | .hbm, ⟨43, _⟩ => ⟨S270336, .f32⟩
  | .hbm, ⟨44, _⟩ => ⟨S270336, .f32⟩
  | .hbm, ⟨45, _⟩ => ⟨S_, .i32⟩
  | .hbm, ⟨46, _⟩ => ⟨S270336, .i32⟩
  | .hbm, ⟨47, _⟩ => ⟨S270336, .i1⟩
  | .hbm, ⟨48, _⟩ => ⟨S_, .i32⟩
  | .hbm, ⟨49, _⟩ => ⟨S270336, .i32⟩
  | .hbm, ⟨50, _⟩ => ⟨S270336, .i32⟩
  | .hbm, ⟨51, _⟩ => ⟨S270336, .i32⟩
  | .hbm, ⟨52, _⟩ => ⟨S270336x1, .i32⟩
  | .hbm, ⟨53, _⟩ => ⟨S270336x64, .f32⟩
  | .hbm, ⟨54, _⟩ => ⟨S270336x1, .f32⟩
  | .hbm, ⟨55, _⟩ => ⟨S270336x64, .f32⟩
  | .hbm, ⟨56, _⟩ => ⟨S270336x64, .f32⟩
  | .hbm, ⟨57, _⟩ => ⟨S_, .f32⟩
  | .hbm, ⟨58, _⟩ => ⟨S8192x64, .f32⟩
  | .hbm, ⟨59, _⟩ => ⟨S270336x1, .i32⟩
  | .hbm, ⟨60, _⟩ => ⟨S8192x64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S8192x8192, .f32⟩
  | .local _ .vmem, ⟨0, _⟩ => ⟨S8192x64, .f32⟩
  | .local _ .vmem, ⟨1, _⟩ => ⟨S256x64, .f32⟩
  | .local _ .vmem, ⟨2, _⟩ => ⟨S256x64, .f32⟩
  | .local _ .vmem, ⟨3, _⟩ => ⟨S8192x256, .f32⟩
  | .local _ .vmem, ⟨4, _⟩ => ⟨S8192x256, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S256x64_p1_0_S64x256 : S256x64.Transposes [1, 0] S64x256
  inb_S8192x256_S8192x256_0_0 : ∀ a, (![0, 0] : Fin 2 → Nat) a + S8192x256.size a ≤ S8192x256.size a
  h_S8192x256 : 0 < S8192x256.numel
  dot_S8192x64_S64x64_S8192x64_1_0_0_1_n_n_wf : DotDims.WF S8192x64 S64x64 S8192x64 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S8192x64.size a
  hwx0_1 : ∀ i : grid0.Coords, EltTy.bits .f32 = 32 ∨ (Rect.block (s := S8192x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x8192.size a
  hwx0_2 : ∀ i : grid0.Coords, EltTy.bits .f32 = 32 ∨ (Rect.block (s := S8192x8192) S8192x256.size (cc0_transform_2 i) (hinb0_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_v46) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v46) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S2x262144 : Shape := ⟨2, ![2, 262144]⟩
abbrev S64x64 : Shape := ⟨2, ![64, 64]⟩
abbrev S64 : Shape := ⟨1, ![64]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x64 : Shape := ⟨2, ![270336, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S2x262144, .i32⟩
  | .hbm, ⟨2, _⟩ => ⟨S64x64, .f32⟩
  | .hbm, ⟨3, _⟩ => ⟨S64, .f32⟩
  | .hbm, ⟨4, _⟩ => ⟨S8192x64, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S8192, .i32⟩
  | .hbm, ⟨10, _⟩ => ⟨S270336, .i32⟩
  | .hbm, ⟨11, _⟩ => ⟨S270336, .i32⟩
  | .hbm, ⟨12, _⟩ => ⟨S_, .f32⟩
  | .hbm, ⟨13, _⟩ => ⟨S270336, .f32⟩
  | .hbm, ⟨14, _⟩ => ⟨S_, .f32⟩
  | .hbm, ⟨15, _⟩ => ⟨S8192, .f32⟩
  | .hbm, ⟨16, _⟩ => ⟨S270336x1, .i32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .i32⟩
  | .hbm, ⟨27, _⟩ => ⟨S270336, .i32⟩
  | .hbm, ⟨28, _⟩ => ⟨S270336, .i1⟩
  | .hbm, ⟨29, _⟩ => ⟨S_, .i32⟩
  | .hbm, ⟨30, _⟩ => ⟨S270336, .i32⟩
  | .hbm, ⟨31, _⟩ => ⟨S270336, .i32⟩
  | .hbm, ⟨32, _⟩ => ⟨S270336, .i32⟩
  | .hbm, ⟨33, _⟩ => ⟨S270336x1, .i32⟩
  | .hbm, ⟨34, _⟩ => ⟨S270336, .f32⟩
  | .hbm, ⟨35, _⟩ => ⟨S_, .i32⟩
  | .hbm, ⟨36, _⟩ => ⟨S270336, .i32⟩
  | .hbm, ⟨37, _⟩ => ⟨S270336, .i1⟩
  | .hbm, ⟨38, _⟩ => ⟨S_, .i32⟩
  | .hbm, ⟨39, _⟩ => ⟨S270336, .i32⟩
  | .hbm, ⟨40, _⟩ => ⟨S270336, .i32⟩
  | .hbm, ⟨41, _⟩ => ⟨S270336, .i32⟩
  | .hbm, ⟨42, _⟩ => ⟨S270336x1, .i32⟩
  | .hbm, ⟨43, _⟩ => ⟨S270336, .f32⟩
  | .hbm, ⟨44, _⟩ => ⟨S270336, .f32⟩
  | .hbm, ⟨45, _⟩ => ⟨S_, .i32⟩
  | .hbm, ⟨46, _⟩ => ⟨S270336, .i32⟩
  | .hbm, ⟨47, _⟩ => ⟨S270336, .i1⟩
  | .hbm, ⟨48, _⟩ => ⟨S_, .i32⟩
  | .hbm, ⟨49, _⟩ => ⟨S270336, .i32⟩
  | .hbm, ⟨50, _⟩ => ⟨S270336, .i32⟩
  | .hbm, ⟨51, _⟩ => ⟨S270336, .i32⟩
  | .hbm, ⟨52, _⟩ => ⟨S270336x1, .i32⟩
  | .hbm, ⟨53, _⟩ => ⟨S270336x64, .f32⟩
  | .hbm, ⟨54, _⟩ => ⟨S270336x1, .f32⟩
  | .hbm, ⟨55, _⟩ => ⟨S270336x64, .f32⟩
  | .hbm, ⟨56, _⟩ => ⟨S270336x64, .f32⟩
  | .hbm, ⟨57, _⟩ => ⟨S_, .f32⟩
  | .hbm, ⟨58, _⟩ => ⟨S8192x64, .f32⟩
  | .hbm, ⟨59, _⟩ => ⟨S270336x1, .i32⟩
  | .hbm, ⟨60, _⟩ => ⟨S8192x64, .f32⟩
  | .hbm, ⟨61, _⟩ => ⟨S1x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S8192x64, .f32⟩
  | .hbm, ⟨66, _⟩ => ⟨S8192x64, .f32⟩
  | .hbm, ⟨67, _⟩ => ⟨S64x8192, .f32⟩
  | .hbm, ⟨68, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x64_0_1 : S270336x1.BroadcastsInDim S270336x64 (![0, 1] : Fin 2 → Fin S270336x64.rank)
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  dot_S8192x64_S64x64_S8192x64_1_0_0_1_n_n_wf : DotDims.WF S8192x64 S64x64 S8192x64 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x64_S270336x1_S270336x64_1_0_n_n_0_1_164_wf : GatherDims.WF S8192x64 S270336x1 S270336x64 [1] [0] [] [0] [] 1 ![1, 64]
  scatter_S8192x64_S270336x1_S270336x64_1_0_0_1_wf : ScatterDims.WF S8192x64 S270336x1 S270336x64 [1] [0] [0] 1
  dot_S8192x64_S64x8192_S8192x8192_1_0_0_1_n_n_wf : DotDims.WF S8192x64 S64x8192 S8192x8192 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x64_S270336x1_S270336x64_1_0_n_n_0_1_164 : GatherDims S8192x64 S270336x1 S270336x64 where
  offsetDims := [1]
  collapsedSliceDims := [0]
  operandBatchingDims := []
  startIndicesBatchingDims := []
  startIndexMap := [0]
  indexVectorDim := 1
  sliceSizes := ![1, 64]
  wf := gather_S8192x64_S270336x1_S270336x64_1_0_n_n_0_1_164_wf
def scatter_S8192x64_S270336x1_S270336x64_1_0_0_1 : ScatterDims S8192x64 S270336x1 S270336x64 where
  updateWindowDims := [1]
  insertedWindowDims := [0]
  scatterDimsToOperandDims := [0]
  indexVectorDim := 1
  wf := scatter_S8192x64_S270336x1_S270336x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibSharedFrame.lean ====
/-
  A frame run for a pipelined kernel whose input windows may read ONE array through several windows.

  When every window has an array of its own, the launch hands each window its array whole. When two input
  windows read the same array (the kernel is given one operand twice, at different blockings), the array's
  one points-to must be divided among them: each window then holds the array at a fraction of the full
  share, and fractions of one array add up to the whole. This module states the frame run at such a
  division, left as a hypothesis (`hsplit`): the buffers behind the windows' arrays, each whole, yield the
  windows' arrays at the shares the proof data name. The conclusion is the library's frame post: after the
  run every windowed array holds what the proof data compute for it and every other unscoped buffer what it
  held when the region was entered.

  The kernel is assumed to use no semaphore of its own and no random generator; its invariant between grid
  points is any proposition the scoped buffers that are not staging buffers yield and give back.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a kernel whose windows may share arrays. `hsplit` divides the buffers behind the arrays
    among the windows at the proof data's shares; `hin` / `hout` say the invariant is what the unstaged scoped
    buffers yield before the first point and give back after the last. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (cfg).spec c : sProp 𝕄) from by iintro ⟨-, H⟩; iexact H).trans (hin c))
    (hout := fun c => (hout c).trans (by
      iintro H
      isplitr; · iempintro
      iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedFrame

end
-- ==== Proof.FrameBits.lean ====
/-
  The frame of the kernel's program as printed, at any float instance.

  The program computes the pre-activation h (8192 × 64) on the host and then runs one pipelined kernel over 32 grid
  points. The kernel reads h through TWO input windows — window 0 the whole of h, resident; window 1 the 256 rows
  256·t … 256·t + 255 at point t — and writes through window 2 the 8192 × 256 column block t of the result. Both input
  windows read the same array, so the array's points-to is divided between them: window 0 holds it at the left half
  of the full share, window 1 at the right half, and the two halves add up to the whole.

  At every point the body loads both input blocks and the output buffer, and stores one value covering the output
  buffer: the matrix product of relu of the first block with the transpose of relu of the second. The inputs' staging
  buffers are left as they were found. From that, the run reaches the end with every argument array unchanged, and
  the result array is what the 32 write-backs leave in it.
-/
import proofs.«116777_j6760278524060_1_alg».proof.Proof.Gen.Kernel.Launch
import proofs.«116777_j6760278524060_1_alg».proof.Proof.Gen.Kernel.Skeleton
import proofs.«116777_j6760278524060_1_alg».proof.Proof.Gen.Kernel.Points
import proofs.«116777_j6760278524060_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What core c's buffers hold when the kernel is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is the three stretches of host operations and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the kernel finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the point fetched it
    or not (an unfetched window's block index has not moved), when the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S8192x64 := Rect.unit (s := S8192x64) ![0, 0] S8192x64.size inb_S8192x64_S8192x64_0_0
abbrev r0_1 : Rect S256x64 := Rect.unit (s := S256x64) ![0, 0] S256x64.size inb_S256x64_S256x64_0_0
abbrev r0_2 : Rect S8192x256 := Rect.unit (s := S8192x256) ![0, 0] S8192x256.size inb_S8192x256_S8192x256_0_0

/-- What the body leaves in the output window's buffer, from the two input blocks: its one store, of the product. -/
def out0_2 (x0 : Vec F S8192x64 .f32) (x1 : Vec F S256x64 .f32) : Vec F S8192x256 .f32 :=
  View.canon [⟨r0_2, k0_pay1 (View.ld x0 r0_0) (View.ld x1 r0_1)⟩]

/-- The one store covers the buffer. -/
theorem cover0_2 (p0 : Vec F S8192x256 .f32) (y : S8192x256.Idx) :
    ∃ pc ∈ ([⟨r0_2, p0⟩] : List (View.Piece (Elt F) S8192x256 .f32)), y ∈ pc.1.set :=
  View.cover_of_tiled [⟨r0_2, p0⟩] S8192x256.size (by rfl) y

set_option maxHeartbeats 1000000 in
/-- The body on whole staging buffers, the inputs' at contents x0 and x1 and the output's at anything, runs to the end
    holding the inputs' as they were and the output's at the product of the inputs. -/
theorem sound_kernel (c : Dev nD) (E : Set ℕ) (i : grid0.Coords) (arg1 : Memref sig .tc .vmem S8192x64 .f32) (harg1 : arg1.IsWhole) (arg2 : Memref sig .tc .vmem S256x64 .f32) (harg2 : arg2.IsWhole) (arg3 : Memref sig .tc .vmem S8192x256 .f32) (harg3 : arg3.IsWhole)
    (x0 : Vec F S8192x64 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__relu_outer_kernel i arg1 harg1 arg2 harg2 arg3 harg3) K := by
  simp only [cc0__relu_outer_kernel_eq_skeleton]; unfold cc0__relu_outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The share each window holds its array at: the two input windows the two halves of the one array they both
    read, the output window its own array whole. -/
def shares : Fin cfg0.W → PosShare TreeShare
  | ⟨0, _⟩ => fullShare.left
  | ⟨1, _⟩ => fullShare.right
  | ⟨_ + 2, _⟩ => fullShare

/-- The proof data of the pipeline on core c: the arrays as the kernel finds them; after the body at point t each
    input's buffer at its block and the output's at the product of the two input blocks; between points nothing
    beyond the staging buffers is kept; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q := shares
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's run applies; what is kept between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The one array behind two windows, divided -/

/-- The arrays behind the windows are two: the pre-activation and the result. -/
theorem arrRefs_eq : (Finset.univ.image (Pipeline.arrRef spec0) : Finset (Ref sig .tc)) = {main_v46, main_v47} := by decide

/-- The pre-activation array held whole yields its two halves, one per input window; the result array goes to the
    output window whole. -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_W0, arrRefs_eq, bigSep_insert (by decide), bigSep_singleton]
  rw [(arr_whole0 0).set_eq_univ, (arr_whole0 2).set_eq_univ]
  show iprop((((c.tc : Thread nD τ).loc main_v46) ↦{fullShare} V m c main_v46) ∗ (((c.tc : Thread nD τ).loc main_v47) ↦{fullShare} V m c main_v47)) ⊢ _
  iintro ⟨Hh, Hr⟩
  ihave Hh := (pointsTo_share (PosShare.mem_left_op_right fullShare)).1 $$ Hh
  icases Hh with ⟨Ha, Hb⟩
  isplitl [Ha]; · iexact Ha
  isplitl [Hb]; · iexact Hb
  iexact Hr

/-! ## The run and the frame -/

set_option backward.isDefEq.respectTransparency.types false in
/-- Every weakly fair execution of the program terminates, and every final state has each windowed array at what
    the proof data compute for it and every other unscoped buffer as the kernel found it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := arrays_of_bufs m) (hin := fun _ => .rfl) (hout := fun _ => .rfl)

/-- The frame: the program runs to the end and its four argument arrays end as they were launched (none is a
    windowed array, and no host operation writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) (run_main m ρ)

end Cert.Kernel.Fr

end
-- ==== Proof.FrameIdeal.lean ====
/-
  The frame of the idealized kernel program, at any float instance.

  The program computes the pre-activation h (8192 × 64) on the host and then runs one pipelined kernel over 32 grid
  points. The kernel reads h through TWO input windows — window 0 the whole of h, resident; window 1 the 256 rows
  256·t … 256·t + 255 at point t — and writes through window 2 the 8192 × 256 column block t of the result. Both input
  windows read the same array, so the array's points-to is divided between them: window 0 holds it at the left half
  of the full share, window 1 at the right half, and the two halves add up to the whole.

  At every point the body loads both input blocks and the output buffer, and stores one value covering the output
  buffer: the matrix product of relu of the first block with the transpose of relu of the second. The inputs' staging
  buffers are left as they were found. From that, the run reaches the end with every argument array unchanged, and
  the result array is what the 32 write-backs leave in it.
-/
import proofs.«116777_j6760278524060_1_alg».proof.Proof.Gen.KernelIdeal.Launch
import proofs.«116777_j6760278524060_1_alg».proof.Proof.Gen.KernelIdeal.Skeleton
import proofs.«116777_j6760278524060_1_alg».proof.Proof.Gen.KernelIdeal.Points
import proofs.«116777_j6760278524060_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- What core c's buffers hold when the kernel is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is the three stretches of host operations and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host operation writes an argument array: the kernel finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the point fetched it
    or not (an unfetched window's block index has not moved), when the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S8192x64 := Rect.unit (s := S8192x64) ![0, 0] S8192x64.size inb_S8192x64_S8192x64_0_0
abbrev r0_1 : Rect S256x64 := Rect.unit (s := S256x64) ![0, 0] S256x64.size inb_S256x64_S256x64_0_0
abbrev r0_2 : Rect S8192x256 := Rect.unit (s := S8192x256) ![0, 0] S8192x256.size inb_S8192x256_S8192x256_0_0

/-- What the body leaves in the output window's buffer, from the two input blocks: its one store, of the product. -/
def out0_2 (x0 : Vec F S8192x64 .f32) (x1 : Vec F S256x64 .f32) : Vec F S8192x256 .f32 :=
  View.canon [⟨r0_2, k0_pay1 (View.ld x0 r0_0) (View.ld x1 r0_1)⟩]

/-- The one store covers the buffer. -/
theorem cover0_2 (p0 : Vec F S8192x256 .f32) (y : S8192x256.Idx) :
    ∃ pc ∈ ([⟨r0_2, p0⟩] : List (View.Piece (Elt F) S8192x256 .f32)), y ∈ pc.1.set :=
  View.cover_of_tiled [⟨r0_2, p0⟩] S8192x256.size (by rfl) y

set_option maxHeartbeats 1000000 in
/-- The body on whole staging buffers, the inputs' at contents x0 and x1 and the output's at anything, runs to the end
    holding the inputs' as they were and the output's at the product of the inputs. -/
theorem sound_kernel (c : Dev nD) (E : Set ℕ) (i : grid0.Coords) (arg1 : Memref sig .tc .vmem S8192x64 .f32) (harg1 : arg1.IsWhole) (arg2 : Memref sig .tc .vmem S256x64 .f32) (harg2 : arg2.IsWhole) (arg3 : Memref sig .tc .vmem S8192x256 .f32) (harg3 : arg3.IsWhole)
    (x0 : Vec F S8192x64 .f32) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__relu_outer_kernel i arg1 harg1 arg2 harg2 arg3 harg3) K := by
  simp only [cc0__relu_outer_kernel_eq_skeleton]; unfold cc0__relu_outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The share each window holds its array at: the two input windows the two halves of the one array they both
    read, the output window its own array whole. -/
def shares : Fin cfg0.W → PosShare TreeShare
  | ⟨0, _⟩ => fullShare.left
  | ⟨1, _⟩ => fullShare.right
  | ⟨_ + 2, _⟩ => fullShare

/-- The proof data of the pipeline on core c: the arrays as the kernel finds them; after the body at point t each
    input's buffer at its block and the output's at the product of the two input blocks; between points nothing
    beyond the staging buffers is kept; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest (Ix := Unit) (Name := ℕ) (U := UR sig nD τ) (Lvl := ℕ) (Val := Elt F) spec0 c
  q := shares
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's run applies; what is kept between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The one array behind two windows, divided -/

/-- The arrays behind the windows are two: the pre-activation and the result. -/
theorem arrRefs_eq : (Finset.univ.image (Pipeline.arrRef spec0) : Finset (Ref sig .tc)) = {main_v46, main_v47} := by decide

/-- The pre-activation array held whole yields its two halves, one per input window; the result array goes to the
    output window whole. -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_W0, arrRefs_eq, bigSep_insert (by decide), bigSep_singleton]
  rw [(arr_whole0 0).set_eq_univ, (arr_whole0 2).set_eq_univ]
  show iprop((((c.tc : Thread nD τ).loc main_v46) ↦{fullShare} V m c main_v46) ∗ (((c.tc : Thread nD τ).loc main_v47) ↦{fullShare} V m c main_v47)) ⊢ _
  iintro ⟨Hh, Hr⟩
  ihave Hh := (pointsTo_share (PosShare.mem_left_op_right fullShare)).1 $$ Hh
  icases Hh with ⟨Ha, Hb⟩
  isplitl [Ha]; · iexact Ha
  isplitl [Hb]; · iexact Hb
  iexact Hr

/-! ## The run and the frame -/

set_option backward.isDefEq.respectTransparency.types false in
/-- Every weakly fair execution of the program terminates, and every final state has each windowed array at what
    the proof data compute for it and every other unscoped buffer as the kernel found it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := arrays_of_bufs m) (hin := fun _ => .rfl) (hout := fun _ => .rfl)

/-- The frame: the program runs to the end and its four argument arrays end as they were launched (none is a
    windowed array, and no host operation writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) (run_main m ρ)

end Cert.KernelIdeal.Fr

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Spec.lean ====
/-
  The function both programs compute, on the extended reals.

  From the pre-activation h, an 8192 × 64 array, the result is the Gram matrix of its rectification: the entry at
  (p, q) is the sum over the 64 features k of relu h(p, k) · relu h(q, k), where relu x = max x 0. The zero is kept
  as the programs spell it, the word of +0.0.
-/
import Idealize.ShloMosaic.Lib.ValueIdx

noncomputable section

namespace Cert.Outer

open Idealize.ShloMosaic Idealize.ShloMosaic.ValueIdx

/-- The rectifier on the extended reals: the larger of x and the zero word's value. -/
def relu (x : EReal) : EReal := max x (Ideal.ofBits .f32 0x00000000#32)

/-- The inner product of rows p and q of the rectified pre-activation. -/
def gramAt (h : (⟨2, ![8192, 64]⟩ : Shape).Idx → EReal) (p q : Fin 8192) : EReal :=
  ∑ k : Fin 64, relu (h (ix2 p k)) * relu (h (ix2 q k))

/-- The whole result: entry (p, q) is the inner product of rows p and q. -/
def gram (h : (⟨2, ![8192, 64]⟩ : Shape).Idx → EReal) : (⟨2, ![8192, 8192]⟩ : Shape).Idx → EReal :=
  fun i => gramAt h ⟨(i 0).val, (i 0).isLt⟩ ⟨(i 1).val, (i 1).isLt⟩

end Cert.Outer

end
-- ==== Proof.KernelPay.lean ====
/-
  The kernel body's stored value at an index.

  The body rectifies both loaded blocks, transposes the second, and multiplies on the matrix unit into a zero
  accumulator. A change of float format is the identity on the extended reals, so the entry at (p, q) of the stored
  8192 × 256 block is the sum over k of relu x0(p, k) · relu x1(q, k): row p of the first block against row q of the
  second.
-/
import proofs.«116777_j6760278524060_1_alg».proof.Proof.Gen.KernelIdeal.Skeleton
import proofs.«116777_j6760278524060_1_alg».proof.Proof.LibDot
import proofs.«116777_j6760278524060_1_alg».proof.Proof.Spec
import Idealize.ShloMosaic.Lib.Pipeline.Value

noncomputable section

namespace Cert.KernelIdeal.Pay

open Idealize.ShloMosaic Idealize.ShloMosaic.ValueIdx Cert.KernelIdeal Cert.KernelIdeal.Gen Cert.Outer

/-- A rectified and narrowed block at an index is relu of the block's entry. -/
theorem relu_block {a b : Nat} (x : FVec Ideal ⟨2, ![a, b]⟩ .f32) (hc : (⟨2, ![a, b]⟩ : Shape).ShapeCasts ⟨2, ![a, b]⟩)
    (hb : FTy.bits .bf16 < FTy.bits .f32) (i : (⟨2, ![a, b]⟩ : Shape).Idx) :
    (truncf .bf16 (maximumf (shapeCast ⟨2, ![a, b]⟩ x hc) (broadcast ⟨2, ![a, b]⟩ (Scalar.ofBits (F := Ideal) .f32 0x00000000#32))) hb
      : FVec Ideal ⟨2, ![a, b]⟩ .bf16) i = relu (x i) := by
  rw [truncf_apply, maximumf_apply, shapeCast_self, broadcast_apply]
  rfl

/-- The stored block at (p, q): row p of the first loaded block against row q of the second, both rectified. -/
theorem pay_apply (x0 : Vec Ideal S8192x64 .f32) (x1 : Vec Ideal S256x64 .f32) (p : Fin 8192) (q : Fin 256) :
    k0_pay1 (F := Ideal) x0 x1 (ix2 p q) = ∑ k : Fin 64, relu (x0 (ix2 p k)) * relu (x1 (ix2 q k)) := by
  unfold k0_pay1
  dsimp only
  refine (Cert.LibDot.matmul_zero_plain_apply dot_S8192x64_S64x256_S8192x256_1_0_0_1_n_n rfl rfl rfl rfl rfl rfl none _ _ (ix2 p q)).trans ?_
  refine Finset.sum_congr rfl fun k _ => ?_
  refine congrArg₂ (· * ·) (relu_block x0 _ _ (ix2 p k)) ?_
  refine (transpose_apply [1, 0] _ transposes_S256x64_p1_0_S64x256 (ix2 k q) (ix2 q k) (fun b => match b with
    | ⟨0, _⟩ => rfl
    | ⟨1, _⟩ => rfl)).trans ?_
  exact relu_block x1 _ _ (ix2 q k)

end Cert.KernelIdeal.Pay

end
-- ==== Proof.KernelValue.lean ====
/-
  What the kernel's program leaves in the result array, at the extended reals.

  Write h for the pre-activation array as the kernel finds it. At grid point t the first input window's block is all
  of h, the second's is rows 256·t … 256·t + 255 of h, and the output window's block is columns 256·t … 256·t + 255
  of the result. So the stored block's entry (p, q) — row p of the first block against row q of the second, both
  rectified — is the Gram entry (p, 256·t + q): what point t writes back is block t of the Gram matrix of relu h.
  The 32 column blocks cover the result array, so the array ends holding that matrix.
-/
import proofs.«116777_j6760278524060_1_alg».proof.Proof.FrameIdeal
import proofs.«116777_j6760278524060_1_alg».proof.Proof.KernelPay

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Fr Cert.Outer

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the first input window stays at block (0, 0), the second is at row block
    t, the output at column block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- The first input window's block at any point is the whole pre-activation array. -/
theorem blk0_read (c : Dev nD) (t : Fin cfg0.N) (y : S8192x64.Idx) : iblk m c 0 t y = V m c main_v46 y := by
  obtain ⟨e00, e01, -⟩ := idx_facts t
  show V m c main_v46 (((cfg0.win 0).blk t).view.emb y) = V m c main_v46 y
  refine congrArg _ (funext fun a => Fin.ext ?_)
  match a with
  | ⟨0, _⟩ => show win0_0.index t (0 : Fin 2) * 8192 + 1 * (y 0).val = (y 0).val; omega
  | ⟨1, _⟩ => show win0_0.index t (1 : Fin 2) * 64 + 1 * (y 1).val = (y 1).val; omega

/-- The second input window's block at point t is rows 256·t … 256·t + 255 of the pre-activation array. -/
theorem blk1_read (c : Dev nD) (t : Fin cfg0.N) (y : S256x64.Idx) (z : S8192x64.Idx)
    (hz0 : (z 0).val = t.val * 256 + (y 0).val) (hz1 : (z 1).val = (y 1).val) : iblk m c 1 t y = V m c main_v46 z := by
  obtain ⟨-, -, e10, e11, -⟩ := idx_facts t
  show V m c main_v46 (((cfg0.win 1).blk t).view.emb y) = V m c main_v46 z
  refine congrArg _ (funext fun a => Fin.ext ?_)
  match a with
  | ⟨0, _⟩ => show win0_1.index t (0 : Fin 2) * 256 + 1 * (y 0).val = (z 0).val; omega
  | ⟨1, _⟩ => show win0_1.index t (1 : Fin 2) * 64 + 1 * (y 1).val = (z 1).val; omega

/-- A stored block against the Gram matrix: when the first block is all of h and the second is rows
    256·tv … 256·tv + 255 of h, the stored entry at y is the Gram entry at row y₀ and column 256·tv + y₁. -/
theorem block_at (h : (⟨2, ![8192, 64]⟩ : Shape).Idx → EReal) (x0 : Vec Ideal S8192x64 .f32) (x1 : Vec Ideal S256x64 .f32) (tv : Nat)
    (h0 : ∀ y : S8192x64.Idx, x0 y = h y)
    (h1 : ∀ (y : S256x64.Idx) (z : S8192x64.Idx), (z 0).val = tv * 256 + (y 0).val → (z 1).val = (y 1).val → x1 y = h z)
    (y : S8192x256.Idx) (i : S8192x8192.Idx) (hi0 : (i 0).val = (y 0).val) (hi1 : (i 1).val = tv * 256 + (y 1).val) :
    k0_pay1 (F := Ideal) x0 x1 y = gram h i := by
  obtain ⟨p, q, rfl⟩ : ∃ (p : Fin 8192) (q : Fin 256), y = ix2 p q := ⟨y 0, y 1, eq_ix2 y⟩
  rw [Cert.KernelIdeal.Pay.pay_apply]
  unfold gram gramAt
  refine Finset.sum_congr rfl fun k _ => ?_
  have ep : (⟨(i 0).val, (i 0).isLt⟩ : Fin 8192) = p := Fin.ext hi0
  rw [h0 (ix2 p k), h1 (ix2 q k) (ix2 ⟨(i 1).val, (i 1).isLt⟩ k) hi1 rfl, ep]

/-- What point t writes back is block t of the Gram matrix of the rectified pre-activation. -/
theorem flushed_eq (c : Dev nD) (t : Fin cfg0.N) :
    (dats m 0 c).flushed 2 t = ((cfg0.win 2).blk t).view.read (Elt Ideal) (gram (V m c main_v46)) := by
  show (cfg0.win 2).cut (grid0.coords t) ((dats m 0 c).after 2 t) = _
  rw [after0_2]
  unfold out0_2
  rw [View.canon_unit_zero hz]
  simp only [View.ld_unit_zero (S := S8192x64) hz, View.ld_unit_zero (S := S256x64) hz]
  obtain ⟨-, -, -, -, e20, e21⟩ := idx_facts t
  funext j
  show k0_pay1 (F := Ideal) (iblk m c 0 t) (iblk m c 1 t) j = gram (V m c main_v46) (((cfg0.win 2).blk t).view.emb j)
  refine block_at (V m c main_v46) (iblk m c 0 t) (iblk m c 1 t) t.val (blk0_read m c t) (blk1_read m c t) j
    (((cfg0.win 2).blk t).view.emb j) ?_ ?_
  · show win0_2.index t (0 : Fin 2) * 8192 + 1 * (j 0).val = (j 0).val; omega
  · show win0_2.index t (1 : Fin 2) * 256 + 1 * (j 1).val = t.val * 256 + (j 1).val; omega

/-- An index of the result array is in point t's block iff each coordinate is in the block's range on its axis. -/
theorem mem_blk (t : Fin cfg0.N) (i : S8192x8192.Idx) :
    i ∈ ((cfg0.win 2).blk t).view.set ↔ ∀ a : Fin 2, win0_2.index t a * S8192x256.size a ≤ (i a).val ∧ (i a).val < win0_2.index t a * S8192x256.size a + S8192x256.size a := by
  show i ∈ ((View.whole main_v47).slice (win0_2.rect t)).set ↔ _
  rw [View.set_slice_whole, Rect.mem_set_unit]
  exact Iff.rfl

/-- The column blocks cover the result array: the entry in column j is in the block of point j / 256. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN : grid0.N = 32 := N_0
  obtain ⟨tt, htt⟩ : ∃ tt : Fin cfg0.N, tt.val = (i 1).val / 256 := ⟨⟨(i 1).val / 256, by show (i 1).val / 256 < grid0.N; omega⟩, rfl⟩
  refine ⟨tt, flush0_2 tt, ?_⟩
  rw [mem_blk]
  obtain ⟨-, -, -, -, e20, e21⟩ := idx_facts tt
  intro a
  match a with
  | ⟨0, _⟩ => show win0_2.index tt (0 : Fin 2) * 8192 ≤ (i 0).val ∧ (i 0).val < win0_2.index tt (0 : Fin 2) * 8192 + 8192; omega
  | ⟨1, _⟩ => show win0_2.index tt (1 : Fin 2) * 256 ≤ (i 1).val ∧ (i 1).val < win0_2.index tt (1 : Fin 2) * 256 + 256; omega

/-- The result array after the run is the Gram matrix of the rectified pre-activation. -/
theorem final (c : Dev nD) : (dats m 0 c).arrAt 2 cfg0.N = gram (V m c main_v46) :=
  (dats m 0 c).arrAt_eq_of_cover 2 (gram (V m c main_v46)) (fun t _ => flushed_eq m c t) cover

/-- The kernel's program runs to the end with the result array at the Gram matrix of the rectified pre-activation
    and the argument arrays unchanged. -/
theorem run : θ_run defs (onTc (τ := τ) (main (F := Ideal))) ⟨m, fun _ => 0, ρ⟩ fun r => ∀ c : Dev nD,
      r.2.mem ((c.tc : Thread nD τ).loc main_v47) = gram (V m c main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 2).trans (final m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) (run_main m ρ)

end Cert.KernelIdeal.Val

end
-- ==== Proof.Glue.lean ====
/-
  The pre-activation the kernel finds is the reference's.

  Both programs compute the pre-activation by the same sequence of host operations on the same four arguments —
  the linear map, the edge lists with self-loops, the degrees by a scatter-add, their inverse square roots, the
  normalised messages, their scatter-add, the bias. The two printed sequences are the same text, so the two values
  are one term; nothing of it is opened.
-/
import proofs.«116777_j6760278524060_1_alg».proof.Proof.FrameIdeal
import proofs.«116777_j6760278524060_1_alg».proof.Proof.RefRead
import Idealize.ShloMosaic.Lib.StableHlo.Run

noncomputable section

namespace Cert.KernelIdeal.Glue

open Idealize.ShloMosaic Idealize.ShloMosaic.TcCoe Idealize.SL.Sem Idealize.ShloMosaic.StableHlo
open Cert.KernelIdeal Cert.KernelIdeal.Gen Cert.KernelIdeal.Fr

set_option maxRecDepth 16384 in
set_option maxHeartbeats 4000000 in
/-- The array behind the two input windows, as the kernel finds it, is the reference's pre-activation of the same
    arguments. -/
theorem preact_eq (m : (ℓ : Loc nD τ sig) → Buf (Elt Ideal) ℓ) (c : Dev nD) :
    (V m c main_v46 : (⟨2, ![8192, 64]⟩ : Shape).Idx → EReal)
      = Cert.ReferenceIdeal.ReadP.val_main_v46 (F := Ideal) (m ((c.tc : Thread nD τ).loc main_arg0)) (m ((c.tc : Thread nD τ).loc main_arg1))
          (m ((c.tc : Thread nD τ).loc main_arg2)) (m ((c.tc : Thread nD τ).loc main_arg3)) := by
  dsimp only [V]
  simp only [hostOps0, hostOps0_1, hostOps0_2, List.flatten_cons, List.flatten_nil, List.append_nil, List.cons_append, List.nil_append]
  after_results_simp
  simp only [TRef.toBuf, TRef.ofBuf, cast_eq]
  rfl

end Cert.KernelIdeal.Glue

end
-- ==== Proof.RefSide.lean ====
/-
  The reference computes the Gram matrix of the rectified pre-activation.

  The reference's last four operations are: relu of the pre-activation (a maximum with a broadcast zero), its
  transpose, and the matrix product of the two. Read at (p, q), the product is the sum over k of
  relu h(p, k) times the transpose's entry (k, q), which is relu h(q, k).
-/
import proofs.«116777_j6760278524060_1_alg».proof.Proof.RefRead
import proofs.«116777_j6760278524060_1_alg».proof.Proof.Spec

noncomputable section

namespace Cert.ReferenceIdeal.RefValue

open Idealize.ShloMosaic Idealize.ShloMosaic.ValueIdx Cert.ReferenceIdeal Cert.ReferenceIdeal.Gen Cert.ReferenceIdeal.ReadP Cert.Outer

/-- The left operand's index of the product at (p, q) and k is (p, k). -/
theorem lidx_eq (i : S8192x8192.Idx) (k : Fin 64) : lidx_main_v49 i k = ix2 (⟨(i 0).val, (i 0).isLt⟩ : Fin 8192) k :=
  funext fun a => Fin.ext (by match a with | ⟨0, _⟩ => rfl | ⟨1, _⟩ => rfl)

/-- The right operand's index (k, q), read through the transpose, is (q, k). -/
theorem ridx_eq (i : S8192x8192.Idx) (k : Fin 64) : idx_main_v48 (ridx_main_v49 i k) = ix2 (⟨(i 1).val, (i 1).isLt⟩ : Fin 8192) k :=
  funext fun a => Fin.ext (by match a with | ⟨0, _⟩ => rfl | ⟨1, _⟩ => rfl)

/-- The rectified pre-activation at an index. -/
theorem relu_apply (x0 : (⟨S8192x64, .f32⟩ : BufTy).Contents (Elt Ideal)) (x1 : (⟨S2x262144, .i32⟩ : BufTy).Contents (Elt Ideal))
    (x2 : (⟨S64x64, .f32⟩ : BufTy).Contents (Elt Ideal)) (x3 : (⟨S64, .f32⟩ : BufTy).Contents (Elt Ideal)) (j : S8192x64.Idx) :
    val_main_v47 (F := Ideal) x0 x1 x2 x3 j = relu (val_main_v46 (F := Ideal) x0 x1 x2 x3 j) := by
  rw [val_main_v47_apply, val_main_call1_v0_apply, val_main_call1_cst_apply]
  rfl

/-- The reference's result is the Gram matrix of the rectified pre-activation. -/
theorem result_eq (x0 : (⟨S8192x64, .f32⟩ : BufTy).Contents (Elt Ideal)) (x1 : (⟨S2x262144, .i32⟩ : BufTy).Contents (Elt Ideal))
    (x2 : (⟨S64x64, .f32⟩ : BufTy).Contents (Elt Ideal)) (x3 : (⟨S64, .f32⟩ : BufTy).Contents (Elt Ideal)) :
    val_main_v49 (F := Ideal) x0 x1 x2 x3 = gram (val_main_v46 (F := Ideal) x0 x1 x2 x3) := by
  funext i
  rw [val_main_v49_apply]
  unfold gram gramAt
  refine Finset.sum_congr rfl fun k _ => ?_
  rw [val_main_v48_apply, relu_apply, relu_apply, lidx_eq, ridx_eq]

end Cert.ReferenceIdeal.RefValue

end
-- ==== Proof.lean ====
/-
  The kernel computes the reconstructed adjacency of a one-layer graph convolution: with h the layer's
  pre-activation (8192 nodes × 64 features), the result is relu(h) · relu(h)ᵀ, an 8192 × 8192 matrix.

  Both programs compute h by the same host operations. The kernel then runs a pipelined matrix product over 32
  column blocks of 256: at block t it multiplies relu of all of h by the transpose of relu of rows 256·t … 256·t + 255
  of h. The reference rectifies h, transposes it, and multiplies once. On the extended reals a change of float format
  is the identity and a product into a zero accumulator is the plain sum, so both results have at (p, q) the sum over
  the 64 features k of relu h(p, k) · relu h(q, k). No algebraic law beyond re-indexing the sums is used, and the
  precondition (finite inputs) is never opened.

  The frames: the kernel's two input windows read the one array h, which is divided between them in halves; the
  reference is a straight line of host operations.
-/
import proofs.«116777_j6760278524060_1_alg».proof.Defs
import proofs.«116777_j6760278524060_1_alg».proof.Proof.Gen.Kernel
import proofs.«116777_j6760278524060_1_alg».proof.Proof.Gen.KernelIdeal
import proofs.«116777_j6760278524060_1_alg».proof.Proof.Gen.ReferenceIdeal
import proofs.«116777_j6760278524060_1_alg».proof.Proof.Gen.Pre_finite_inputs
import proofs.«116777_j6760278524060_1_alg».proof.Proof.FrameBits
import proofs.«116777_j6760278524060_1_alg».proof.Proof.FrameIdeal
import proofs.«116777_j6760278524060_1_alg».proof.Proof.KernelValue
import proofs.«116777_j6760278524060_1_alg».proof.Proof.Glue
import proofs.«116777_j6760278524060_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program as printed runs to the end and leaves its arguments unchanged. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the Gram matrix of the rectified pre-activation:
    the kernel's result array by its 32 column blocks, the reference's by its one product, and the two
    pre-activations are one term of the arguments. -/
theorem algebraic : Cert.algebraic_KernelIdeal_ReferenceIdeal := by
  intro m ρ m' ρ' _ hagree
  refine ⟨fun c => Cert.Outer.gram (Cert.KernelIdeal.Fr.V m c Cert.KernelIdeal.main_v46), Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, Cert.ReferenceIdeal.RefValue.result_eq,
    (hagree c).1, (hagree c).2.1, (hagree c).2.2.1, (hagree c).2.2.2, ← Cert.KernelIdeal.Glue.preact_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
